-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S64x768 : Shape := ⟨2, ![64, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S4x8192x768 .f32) (main_arg1 : FVec F S64x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S4x8192x768 : Shape := ⟨3, ![4, 8192, 768]⟩
abbrev S64x768 : Shape := ⟨2, ![64, 768]⟩
abbrev S32768x768 : Shape := ⟨2, ![32768, 768]⟩
abbrev S64x32768 : Shape := ⟨2, ![64, 32768]⟩
abbrev S32768x64 : Shape := ⟨2, ![32768, 64]⟩
abbrev S4096x768 : Shape := ⟨2, ![4096, 768]⟩
abbrev S64x4096 : Shape := ⟨2, ![64, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S32768x768, .f32⟩
  | .hbm, ⟨3, _⟩ => ⟨S64x32768, .f32⟩
  | .hbm, ⟨4, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x4096, .f32⟩
  | .local _ .vmem, ⟨4, _⟩ => ⟨S64x4096, .f32⟩
  | .local _ .vmem, ⟨5, _⟩ => ⟨S64x768, .bf16⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x768_S32768x768 : S4x8192x768.ShapeCasts S32768x768
  transposes_S64x32768_S32768x64_1_0 : S64x32768.Transposes [1, 0] S32768x64
  inb_S64x768_S64x768_0_0 : ∀ a, (![0, 0] : Fin 2 → Nat) a + S64x768.size a ≤ S64x768.size a
  h_S64x768 : 0 < S64x768.numel
  bitsLt_bf16_f32 : FTy.bits .bf16 < FTy.bits .f32
  shapeCasts_S64x768_S64x768 : S64x768.ShapeCasts S64x768
  packedbf16_S64x768_S64x768_0_0 : (Rect.unit (s := S64x768) ![0, 0] S64x768.size inb_S64x768_S64x768_0_0).PackedRows (EltTy.packing .bf16)
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S64x4096_S64x4096_0_0 : ∀ a, (![0, 0] : Fin 2 → Nat) a + S64x4096.size a ≤ S64x4096.size a
  h_S64x4096 : 0 < S64x4096.numel
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x32768.size a
  hwx0_2 : ∀ i : grid0.Coords, EltTy.bits .f32 = 32 ∨ (Rect.block (s := S64x32768) S64x4096.size (cc0_transform_2 i) (hinb0_2 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_call0_v0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S64x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S64x768 : Shape := ⟨2, ![64, 768]⟩
abbrev S32768x768 : Shape := ⟨2, ![32768, 768]⟩
abbrev S768x64 : Shape := ⟨2, ![768, 64]⟩
abbrev S32768x64 : Shape := ⟨2, ![32768, 64]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S32768x768, .f32⟩
  | .hbm, ⟨3, _⟩ => ⟨S768x64, .f32⟩
  | .hbm, ⟨4, _⟩ => ⟨S32768x64, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x8192x768_S32768x768 : S4x8192x768.ShapeCasts S32768x768
  transposes_S64x768_S768x64_1_0 : S64x768.Transposes [1, 0] S768x64
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.RouterSpec.lean ====
/-
  The router projection as one function of the two argument arrays, index by index, over the extended reals.

  The hidden states are an array [4, 8192, 768]: 4 sequences of 8192 tokens, each token a vector of 768 features.
  Flattened row-major into 32768 tokens, token `r` is position `r % 8192` of sequence `r / 8192`. The weight is
  [64, 768]: one row of 768 coefficients per expert. The logit of token `r` for expert `e` is the inner product
  of the token's features with the expert's row,

      logits (r, e) = ∑ k < 768, x (r / 8192, r % 8192, k) · w (e, k).

  Both programs compute this sum with the features in the same order `k = 0 … 767`; they differ only in which factor
  of each product comes first, so the one law that joins them is the commutativity of the product, which holds on
  all of the extended reals (no finiteness is needed).
-/
import Idealize.ShloMosaic.PureOps.Ideal
import Idealize.ShloMosaic.Lib.ValueIdx

noncomputable section

namespace Cert.RouterSpec

open Idealize.ShloMosaic Idealize.ShloMosaic.ValueIdx

/-- The hidden states' shape. -/
abbrev SX : Shape := ⟨3, ![4, 8192, 768]⟩
/-- The weight's shape: experts × features. -/
abbrev SW : Shape := ⟨2, ![64, 768]⟩
/-- The logits' shape: tokens × experts. -/
abbrev SOut : Shape := ⟨2, ![32768, 64]⟩

/-- Feature `k` of flattened token `r`, as an index of the hidden states: sequence `r / 8192`, position `r % 8192`. -/
abbrev tokenAt (r : Fin 32768) (k : Fin 768) : SX.Idx :=
  ix3 (⟨r.val / 8192, by have := r.isLt; omega⟩ : Fin 4) (⟨r.val % 8192, Nat.mod_lt _ (by decide)⟩ : Fin 8192) k

/-- The router logits: token `i 0`'s features against expert `i 1`'s coefficients. -/
def logits (x : SX.Idx → EReal) (w : SW.Idx → EReal) : SOut.Idx → EReal :=
  fun i => ∑ k : Fin 768, x (tokenAt (i 0 : Fin 32768) k) * w (ix2 (i 1 : Fin 64) k)

theorem logits_apply (x : SX.Idx → EReal) (w : SW.Idx → EReal) (r : Fin 32768) (e : Fin 64) :
    logits x w (ix2 r e) = ∑ k : Fin 768, x (tokenAt r k) * w (ix2 e k) := rfl

/-- The same sum with the expert's coefficient first in each product: the form a weight-stationary product
    `w · xᵀ` has at the transposed index. -/
theorem logits_apply_comm (x : SX.Idx → EReal) (w : SW.Idx → EReal) (r : Fin 32768) (e : Fin 64) :
    logits x w (ix2 r e) = ∑ k : Fin 768, w (ix2 e k) * x (tokenAt r k) :=
  (logits_apply x w r e).trans (Finset.sum_congr rfl fun k _ => mul_comm _ _)

end Cert.RouterSpec

end
-- ==== Proof.RefLogits.lean ====
/-
  The reference computes the router logits: it flattens the hidden states to [32768, 768] (a reshape: the same
  row-major position), transposes the weight to [768, 64], and contracts the feature axis. Read at an index (r, e)
  that is ∑ k, flat (r, k) · wᵀ (k, e), where flat (r, k) is the hidden state at row-major position r · 768 + k, that is
  (r / 8192, r % 8192, k), and wᵀ (k, e) = w (e, k).
-/
import proofs.«177702_g52097953300680_cont_9to1_m_655_25_alg».proof.Proof.Gen.ReferenceIdeal.Read
import proofs.«177702_g52097953300680_cont_9to1_m_655_25_alg».proof.Proof.RouterSpec

noncomputable section

namespace Cert.ReferenceIdeal.RefLogits

open Cert.ReferenceIdeal Idealize.ShloMosaic Idealize.ShloMosaic.ValueIdx

/-- The flattened array at (r, k) is the hidden state of token `r` at feature `k`. -/
theorem flat_idx (i : S32768x64.Idx) (k : Fin 768) :
    Read.idx_main_v0 (Read.lidx_main_v2 i k) = Cert.RouterSpec.tokenAt (i 0 : Fin 32768) k := by
  have h0 : (i 0).val < 32768 := (i 0).isLt
  have hk : k.val < 768 := k.isLt
  funext a
  apply Fin.ext
  match a with
  | ⟨0, _⟩ => show ((i 0).val * 768 + k.val) / 6291456 = (i 0).val / 8192; omega
  | ⟨1, _⟩ => show ((i 0).val * 768 + k.val) / 768 % 8192 = (i 0).val % 8192; omega
  | ⟨2, _⟩ => show ((i 0).val * 768 + k.val) % 768 = k.val; omega

/-- The transposed weight at (k, e) is the weight at (e, k). -/
theorem wt_idx (i : S32768x64.Idx) (k : Fin 768) :
    Read.idx_main_v1 (Read.ridx_main_v2 i k) = ix2 (i 1 : Fin 64) k := by
  funext a
  match a with
  | ⟨0, _⟩ => rfl
  | ⟨1, _⟩ => rfl

/-- The reference's result is the router logits of its arguments. -/
theorem result_eq (x0 : (⟨S4x8192x768, .f32⟩ : BufTy).Contents (Elt Ideal)) (x1 : (⟨S64x768, .f32⟩ : BufTy).Contents (Elt Ideal)) :
    Read.val_main_v2 (F := Ideal) x0 x1 = Cert.RouterSpec.logits x0 x1 := by
  funext i
  rw [Read.val_main_v2_apply]
  unfold Cert.RouterSpec.logits
  refine Finset.sum_congr rfl fun k _ => ?_
  rw [Read.val_main_v0_apply, Read.val_main_v1_apply, flat_idx, wt_idx]
  rfl

end Cert.ReferenceIdeal.RefLogits

end
-- ==== Proof.RouterBody.lean ====
/-
  What one run of the kernel body leaves behind, as values, at any float instance.

  The body keeps a packed copy of the weight in a scratch buffer that lives across grid points. At the first point it
  loads the weight block `w`, packs it (`pack w`: a narrowing of format and an identity reshape) and stores it whole
  into the scratch; at every point it then loads the scratch, loads its block `x` of 4096 tokens, and stores
  `prod s x` — the scratch `s` contracted with the token block over the feature axis, into a zero accumulator —
  whole into the output block. So:

    at the first point   the scratch ends at `pack w`, the output block at `prod (pack w) x`
                         (the scratch load reads back what the store just before it wrote);
    at a later point     the scratch is left as the point before left it, `s`, and the output block ends at `prod s x`.

  Each output is written by ONE store through the whole-block rectangle at zero offsets, so reading the stores back is
  reading that store's payload; each load is through the same kind of rectangle of a whole buffer, so it reads the
  buffer's contents.
-/
import proofs.«177702_g52097953300680_cont_9to1_m_655_25_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RouterBody

open Cert.KernelIdeal Cert.KernelIdeal.Gen

variable {F : FTy → Type} [FloatOps F]

/-- The zero offsets of a rank-2 rectangle, as the constant function. -/
theorem zero_off : (![0, 0] : Fin 2 → Nat) = fun _ => 0 := funext fun a => by fin_cases a <;> rfl

/-- A LATER POINT's output block: the carried scratch `s` contracted with the token block `x`. -/
theorem later_out (c : Dev nD) (i : grid0.Coords) (a1 : Memref sig .tc .vmem S4096x768 .f32) (h1 : a1.IsWhole)
    (a2 : Memref sig .tc .vmem S64x768 .f32) (h2 : a2.IsWhole) (a3 : Memref sig .tc .vmem S64x4096 .f32) (h3 : a3.IsWhole)
    (a4 : Memref sig .tc .vmem S64x768 .bf16) (h4 : a4.IsWhole) (hc : ¬cond0_0 i)
    (x : Vec F S4096x768 .f32) (w : Vec F S64x768 .f32) (s : Vec F S64x768 .bf16) :
    out0_B_2 c i a1 h1 a2 h2 a3 h3 a4 h4 hc x w s = k0_pay2 s x := by
  unfold out0_B_2
  rw [View.read_writes_eq_canon _ _ _ (cover0_B_2 c i a1 h1 a2 h2 a3 h3 a4 h4 hc x w s)]
  unfold kernelRun0_B
  dsimp only
  rw [View.canon_unit_zero zero_off]
  simp only [View.readAt_eq_ld, h1.read_unread, h4.read_unread, View.ld_unit_zero (S := S64x768) zero_off,
    View.ld_unit_zero (S := S4096x768) zero_off]

/-- The FIRST POINT's scratch: the packed weight block. -/
theorem first_scratch (c : Dev nD) (i : grid0.Coords) (a1 : Memref sig .tc .vmem S4096x768 .f32) (h1 : a1.IsWhole)
    (a2 : Memref sig .tc .vmem S64x768 .f32) (h2 : a2.IsWhole) (a3 : Memref sig .tc .vmem S64x4096 .f32) (h3 : a3.IsWhole)
    (a4 : Memref sig .tc .vmem S64x768 .bf16) (h4 : a4.IsWhole) (hc : cond0_0 i)
    (x : Vec F S4096x768 .f32) (w : Vec F S64x768 .f32) :
    sout0_A_0 c i a1 h1 a2 h2 a3 h3 a4 h4 hc x w = k0_pay1 w := by
  unfold sout0_A_0
  rw [View.read_writes_eq_canon _ _ _ (scover0_A_0 c i a1 h1 a2 h2 a3 h3 a4 h4 hc x w)]
  unfold kernelRun0_A
  dsimp only
  sl_unfold_words
  rw [View.canon_unit_zero (S := S64x768) zero_off]
  simp only [View.readAt_eq_ld, h2.read_unread, View.ld_unit_zero (S := S64x768) zero_off]

/-- The FIRST POINT's output block: the packed weight block, read back from the scratch, contracted with the token
    block `x`. -/
theorem first_out (c : Dev nD) (i : grid0.Coords) (a1 : Memref sig .tc .vmem S4096x768 .f32) (h1 : a1.IsWhole)
    (a2 : Memref sig .tc .vmem S64x768 .f32) (h2 : a2.IsWhole) (a3 : Memref sig .tc .vmem S64x4096 .f32) (h3 : a3.IsWhole)
    (a4 : Memref sig .tc .vmem S64x768 .bf16) (h4 : a4.IsWhole) (hc : cond0_0 i)
    (x : Vec F S4096x768 .f32) (w : Vec F S64x768 .f32) :
    out0_A_2 c i a1 h1 a2 h2 a3 h3 a4 h4 hc x w = k0_pay2 (k0_pay1 w) x := by
  unfold out0_A_2
  rw [View.read_writes_eq_canon _ _ _ (cover0_A_2 c i a1 h1 a2 h2 a3 h3 a4 h4 hc x w)]
  unfold kernelRun0_A
  dsimp only
  sl_unfold_words
  rw [View.canon_unit_zero zero_off, View.readCov_unit_zero (S := S64x768) _ zero_off]
  simp only [View.readAt_eq_ld, h1.read_unread, h2.read_unread, View.ld_unit_zero (S := S64x768) zero_off,
    View.ld_unit_zero (S := S4096x768) zero_off]

end Cert.KernelIdeal.RouterBody

end
-- ==== Proof.RouterGrid.lean ====
/-
  What the output's staging buffer and the carried scratch hold after each grid point.

  The grid has 8 points; point `t` works on token block `t` (4096 tokens). The weight window's block index is (0, 0)
  at every point and its block is the whole [64, 768] array, so the block a point finds IS the weight array. Only the
  first point packs the weight into the scratch; every later point finds the scratch as the point before left it and
  leaves it so. Hence, by induction on the point, after EVERY point the scratch holds the packed weight array; and so at
  every point the output block is the packed weight contracted with the point's own token block.
-/
import proofs.«177702_g52097953300680_cont_9to1_m_655_25_alg».proof.Proof.Gen.KernelIdeal.Frame
import Idealize.ShloMosaic.Lib.Pipeline.Value
import Idealize.ShloMosaic.Lib.Tactic
import proofs.«177702_g52097953300680_cont_9to1_m_655_25_alg».proof.Proof.RouterBody

noncomputable section

open Idealize.ShloMosaic Idealize.ShloMosaic.TcCoe Idealize.SL.Sem
open Idealize.ShloMosaic.Pipeline (Dat)

namespace Cert.KernelIdeal.RouterGrid

open Cert.KernelIdeal Cert.KernelIdeal.Gen Cert.KernelIdeal.RouterBody

variable {F : FTy → Type} [FloatOps F]
variable (m : (ℓ : Loc nD τ sig) → Buf (Elt F) ℓ)

/-- The weight window does not move: its block index is (0, 0) at every point. -/
theorem weight_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- So the weight block a point finds is the whole weight array. -/
theorem weight_block (c : Dev nD) (t : Fin cfg0.N) : (iblk m c 1 t : Vec F S64x768 .f32) = V m c main_arg1 := by
  obtain ⟨e0, e1⟩ := weight_index t
  funext y
  unfold iblk
  rw [View.read_apply]
  show V m c main_arg1 _ = V m c main_arg1 y
  congr 1
  funext a
  apply Fin.ext
  match a with
  | ⟨0, _⟩ => show win0_1.index t 0 * 64 + 1 * (y 0).val = (y 0).val; rw [e0]; omega
  | ⟨1, _⟩ => show win0_1.index t 1 * 768 + 1 * (y 1).val = (y 1).val; rw [e1]; omega

/-- The packed weight array. -/
def packed (c : Dev nD) : Vec F S64x768 .bf16 := k0_pay1 (V m c main_arg1)

/-- One step of the induction, at a symbolic point: the scratch after point `t` is the packed weight, given that it was
    after the point before (when there is one). -/
theorem scratch_step (c : Dev nD) (t : Fin cfg0.N)
    (ih : t.val ≠ 0 → (outsAt0 m c (t.val - 1) (Nat.lt_of_le_of_lt (Nat.sub_le _ _) t.isLt)).2 = packed m c) :
    (outsAt0 m c t.val t.isLt).2 = packed m c := by
  by_cases h0 : t.val % 8 = 0
  · rw [outsAt0_A m c t h0]
    dsimp only
    exact (first_scratch c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
      (congrArg k0_pay1 (weight_block m c t))
  · rw [outsAt0_B m c t h0]
    dsimp only
    unfold sout0_B_0
    exact ih (fun hz => h0 (by rw [hz]))

/-- After every point the scratch holds the packed weight. -/
theorem scratch_eq (c : Dev nD) : ∀ (n : ℕ) (h : n < cfg0.N), (outsAt0 m c n h).2 = packed m c
  | 0, h => scratch_step m c ⟨0, h⟩ (fun hne => absurd rfl hne)
  | n + 1, h => scratch_step m c ⟨n + 1, h⟩ (fun _ => scratch_eq c n _)

/-- At every point the output block is the packed weight contracted with the point's token block. -/
theorem out_eq (c : Dev nD) (t : Fin cfg0.N) :
    (outsAt0 m c t.val t.isLt).1 = k0_pay2 (packed m c) (iblk m c 0 t) := by
  by_cases h0 : t.val % 8 = 0
  · rw [outsAt0_A m c t h0]
    dsimp only
    exact (first_out c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
      (congrArg (fun s => k0_pay2 s (iblk m c 0 t)) (congrArg k0_pay1 (weight_block m c t)))
  · rw [outsAt0_B m c t h0]
    dsimp only
    exact (later_out c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2).trans
      (congrArg (fun s => k0_pay2 s (iblk m c 0 t)) (scratch_eq m c (t.val - 1) _))

end Cert.KernelIdeal.RouterGrid

end
-- ==== Proof.RouterProduct.lean ====
/-
  The kernel body's arithmetic read at an index, over the extended reals.

  Packing the weight (a change of float format, then a reshape to the same shape) changes nothing: at the ideal
  instance a change of format is the identity. The body's matrix product contracts axis 1 of the packed weight
  [64, 768] with axis 1 of the token block [4096, 768] into a zero accumulator, so its entry (e, q) — expert `e`,
  token `q` of the block — is

      ∑ k < 768, s (e, k) · x (q, k),

  the features in their natural order: the left operand is indexed by the output's row and the contraction index, the
  right operand by the output's column and the contraction index.
-/
import proofs.«177702_g52097953300680_cont_9to1_m_655_25_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe

namespace Cert.KernelIdeal.RouterProduct

open Cert.KernelIdeal Cert.KernelIdeal.Gen Idealize.ShloMosaic.ValueIdx

/-- The packed weight is the weight. -/
theorem pack_eq (w : FVec Ideal S64x768 .f32) : k0_pay1 (F := Ideal) w = w := by
  unfold k0_pay1
  simp only [shapeCast_self]
  rfl

/-- The left operand's row is the output's row. -/
theorem lhs_row (j : S64x4096.Idx) (p : dot_S64x768_S4096x768_S64x4096_1_1_0_0_n_n.contr.Idx) :
    (dot_S64x768_S4096x768_S64x4096_1_1_0_0_n_n.lhsIdx j p 0).val = (j 0).val := by
  unfold DotDims.lhsIdx
  rw [dif_neg (show ¬(0 : Fin S64x768.rank) ∈ dot_S64x768_S4096x768_S64x4096_1_1_0_0_n_n.lhsBatch by decide),
    dif_pos (show (0 : Fin S64x768.rank) ∈ dot_S64x768_S4096x768_S64x4096_1_1_0_0_n_n.lhsNonContracting by decide)]
  rfl

/-- The right operand's row is the output's column. -/
theorem rhs_row (j : S64x4096.Idx) (p : dot_S64x768_S4096x768_S64x4096_1_1_0_0_n_n.contr.Idx) :
    (dot_S64x768_S4096x768_S64x4096_1_1_0_0_n_n.rhsIdx j p 0).val = (j 1).val := by
  unfold DotDims.rhsIdx
  rw [dif_neg (show ¬(0 : Fin S4096x768.rank) ∈ dot_S64x768_S4096x768_S64x4096_1_1_0_0_n_n.rhsBatch by decide),
    dif_pos (show (0 : Fin S4096x768.rank) ∈ dot_S64x768_S4096x768_S64x4096_1_1_0_0_n_n.rhsNonContracting by decide)]
  rfl

/-- The product into a zero accumulator, at (e, q): the sum over the features of left (e, k) · right (q, k). -/
theorem matmul_at (s : FVec Ideal S64x768 .bf16) (y : FVec Ideal S4096x768 .bf16) (e : Fin 64) (q : Fin 4096) :
    matmul dot_S64x768_S4096x768_S64x4096_1_1_0_0_n_n none s y (constant (F := Ideal) S64x4096 .f32 0x00000000#32) (ix2 e q)
      = ∑ k : Fin 768, s (ix2 e k) * y (ix2 q k) := by
  simp only [matmul]
  rw [Ideal.matmul_constant_zero_apply, ← Equiv.sum_comp (contrEquiv1 dot_S64x768_S4096x768_S64x4096_1_1_0_0_n_n 768 rfl rfl).symm]
  refine Finset.sum_congr rfl fun k _ => ?_
  have hk := contrEquiv1_symm_val dot_S64x768_S4096x768_S64x4096_1_1_0_0_n_n 768 rfl rfl k
  have el : dot_S64x768_S4096x768_S64x4096_1_1_0_0_n_n.lhsIdx (ix2 e q) ((contrEquiv1 dot_S64x768_S4096x768_S64x4096_1_1_0_0_n_n 768 rfl rfl).symm k) = ix2 e k :=
    funext fun a => Fin.ext (by
      match a with
      | ⟨0, _⟩ => exact lhs_row _ _
      | ⟨1, _⟩ => exact (dot_S64x768_S4096x768_S64x4096_1_1_0_0_n_n.lhsIdx_val_of_single rfl _ _).trans hk)
  have er : dot_S64x768_S4096x768_S64x4096_1_1_0_0_n_n.rhsIdx (ix2 e q) ((contrEquiv1 dot_S64x768_S4096x768_S64x4096_1_1_0_0_n_n 768 rfl rfl).symm k) = ix2 q k :=
    funext fun a => Fin.ext (by
      match a with
      | ⟨0, _⟩ => exact rhs_row _ _
      | ⟨1, _⟩ => exact (dot_S64x768_S4096x768_S64x4096_1_1_0_0_n_n.rhsIdx_val_of_single rfl _ _).trans hk)
  rw [el, er]

/-- The body's output payload at (e, q): scratch row `e` against token `q` of the block. -/
theorem prod_apply (s : FVec Ideal S64x768 .bf16) (x : FVec Ideal S4096x768 .f32) (e : Fin 64) (q : Fin 4096) :
    k0_pay2 (F := Ideal) s x (ix2 e q) = ∑ k : Fin 768, s (ix2 e k) * x (ix2 q k) := by
  unfold k0_pay2
  simp only [shapeCast_self]
  exact (matmul_at s (truncf .bf16 x bitsLt_bf16_f32) e q).trans (Finset.sum_congr rfl fun k _ => rfl)

end Cert.KernelIdeal.RouterProduct

end
-- ==== Proof.RouterArray.lean ====
/-
  From blocks to arrays: what the idealized kernel program's result array holds, as one function of its arguments.

  Before the region the host flattens the hidden states to [32768, 768]: entry (r, k) of the flat array is feature `k` of
  token `r` (the same row-major position). Token window block `t` is rows 4096·t … 4096·t + 4095 of the flat array, the
  weight block is the weight array, and output block `t` is columns 4096·t … 4096·t + 4095 of the region's result
  [64, 32768]. At point `t` the body leaves in the output block, at (e, q),

      ∑ k, w (e, k) · flat (4096·t + q, k)  =  logits (4096·t + q, e)

  (the product's factors swapped: the one algebraic step). The 8 blocks tile the result array — column `r` lies in
  block `r / 4096` —, so the region's result is the TRANSPOSED logits, and the host's transpose after the region turns it
  into the logits.
-/
import proofs.«177702_g52097953300680_cont_9to1_m_655_25_alg».proof.Proof.Gen.KernelIdeal.Frame
import Idealize.ShloMosaic.Lib.Pipeline.Value
import Idealize.ShloMosaic.Lib.Tactic
import proofs.«177702_g52097953300680_cont_9to1_m_655_25_alg».proof.Proof.RouterGrid
import proofs.«177702_g52097953300680_cont_9to1_m_655_25_alg».proof.Proof.RouterProduct
import proofs.«177702_g52097953300680_cont_9to1_m_655_25_alg».proof.Proof.RouterSpec
import Idealize.ShloMosaic.Lib.StableHlo.Run

noncomputable section

open Idealize.ShloMosaic Idealize.ShloMosaic.TcCoe Idealize.SL.Sem
open Idealize.ShloMosaic.Pipeline (Dat)

namespace Cert.KernelIdeal.RouterArray

open Cert.KernelIdeal Cert.KernelIdeal.Gen Cert.KernelIdeal.RouterGrid Cert.KernelIdeal.RouterProduct
open Idealize.ShloMosaic.ValueIdx
open Cert.RouterSpec (logits tokenAt)

variable (m : (ℓ : Loc nD τ sig) → Buf (Elt Ideal) ℓ) (ρ : Dev nD → PrngReg)

/-- The transposed logits, experts × tokens: what the region's result array ends holding. -/
def logitsT (x : S4x8192x768.Idx → EReal) (w : S64x768.Idx → EReal) : S64x32768.Idx → EReal :=
  fun j => logits x w (ix2 (j 1 : Fin 32768) (j 0 : Fin 64))

/-! ## The arrays the region finds -/

/-- The flat array the region finds is the host's reshape of the hidden states. -/
theorem flat_eq (c : Dev nD) :
    (V m c main_call0_v0 : S32768x768.Idx → EReal)
      = shapeCast S32768x768 (m ((c : Thread nD τ).loc main_arg0)) shapeCasts_S4x8192x768_S32768x768 := by
  show StableHlo.after hostOps0 (fun b => m (c, b)) (Proc.devRef .tc main_call0_v0) = _
  after_results
  rfl

/-- Its entry (r, k) is feature `k` of token `r`: the same row-major position. -/
theorem flat_apply (c : Dev nD) (r : Fin 32768) (k : Fin 768) :
    (V m c main_call0_v0 : S32768x768.Idx → EReal) (ix2 r k) = (m ((c : Thread nD τ).loc main_arg0)) (tokenAt r k) :=
  (congrFun (flat_eq m c) (ix2 r k)).trans
    (shapeCast_apply _ shapeCasts_S4x8192x768_S32768x768 (ix2 r k) (tokenAt r k) (by
      rewrite [Shape.rowMajor_val_three, Shape.rowMajor_val_two]
      have := r.isLt
      show (r.val / 8192 * 8192 + r.val % 8192) * 768 + k.val = r.val * 768 + k.val
      omega))

/-- The token window moves down the rows: block index (t, 0) at point `t`. -/
theorem token_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Token block `t` at (q, k) is the flat array at row 4096·t + q. -/
theorem token_block (c : Dev nD) (t : Fin cfg0.N) (q : Fin 4096) (k : Fin 768) (r : Fin 32768)
    (hr : r.val = 4096 * t.val + q.val) :
    (iblk m c 0 t : Vec Ideal S4096x768 .f32) (ix2 q k) = (V m c main_call0_v0 : S32768x768.Idx → EReal) (ix2 r k) := by
  obtain ⟨e0, e1⟩ := token_index t
  unfold iblk
  rw [View.read_apply]
  show V m c main_call0_v0 _ = V m c main_call0_v0 (ix2 r k)
  congr 1
  funext a
  apply Fin.ext
  match a with
  | ⟨0, _⟩ => show win0_0.index t 0 * 4096 + 1 * q.val = r.val; rw [e0]; omega
  | ⟨1, _⟩ => show win0_0.index t 1 * 768 + 1 * k.val = k.val; rw [e1]; omega

/-! ## One entry of one output block -/

/-- With the scratch at the weight and the token block at rows 4096·tv … of the tokens, the body's output payload at
    (e, q) is the logit of token 4096·tv + q for expert e: the same sum over the features, the factors swapped. -/
theorem block_entry (x : S4x8192x768.Idx → EReal) (w : S64x768.Idx → EReal)
    (s : FVec Ideal S64x768 .bf16) (xb : FVec Ideal S4096x768 .f32) (tv : ℕ)
    (hs : ∀ (e : Fin 64) (k : Fin 768), s (ix2 e k) = w (ix2 e k))
    (hx : ∀ (q : Fin 4096) (k : Fin 768) (r : Fin 32768), r.val = 4096 * tv + q.val → xb (ix2 q k) = x (tokenAt r k))
    (y : S64x4096.Idx) (i : S64x32768.Idx) (h0 : (i 0).val = (y 0).val) (h1 : (i 1).val = 4096 * tv + (y 1).val) :
    k0_pay2 (F := Ideal) s xb y = logitsT x w i := by
  obtain ⟨e, q, rfl⟩ : ∃ (e : Fin 64) (q : Fin 4096), y = ix2 e q := ⟨y 0, y 1, eq_ix2 y⟩
  obtain ⟨e', r, rfl⟩ : ∃ (e' : Fin 64) (r : Fin 32768), i = ix2 e' r := ⟨i 0, i 1, eq_ix2 i⟩
  have he : e' = e := Fin.ext h0
  subst he
  rw [prod_apply]
  show _ = logits x w (ix2 r e')
  rw [Cert.RouterSpec.logits_apply_comm]
  exact Finset.sum_congr rfl fun k _ => by rw [hs, hx q k r h1]

/-! ## The region's result array -/

/-- The output window moves along the columns: block index (0, t) at point `t`. -/
theorem out_index : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- What point `t` writes back is block `t` of the transposed logits of the arguments. -/
theorem flushed_eq (c : Dev nD) (t : Fin cfg0.N) :
    (dats m 0 c).flushed 2 t = ((cfg0.win 2).blk t).view.read (Elt Ideal) (logitsT (m ((c : Thread nD τ).loc main_arg0)) (m ((c : Thread nD τ).loc main_arg1))) := by
  obtain ⟨e0, e1⟩ := out_index t
  show (cfg0.win 2).cut (grid0.coords t) ((dats m 0 c).after 2 t) = _
  rw [after0_2, out_eq]
  funext y
  show k0_pay2 (packed m c) (iblk m c 0 t) y = logitsT (m ((c : Thread nD τ).loc main_arg0)) (m ((c : Thread nD τ).loc main_arg1)) (((cfg0.win 2).blk t).view.emb y)
  refine block_entry (m ((c : Thread nD τ).loc main_arg0)) (m ((c : Thread nD τ).loc main_arg1)) (packed m c) (iblk m c 0 t) t.val ?_ ?_ y _ ?_ ?_
  · intro e k
    exact (congrFun (pack_eq (V m c main_arg1)) (ix2 e k)).trans (congrFun (V_main_arg1 m c) (ix2 e k))
  · intro q k r hr
    exact (token_block m c t q k r hr).trans (flat_apply m c r k)
  · show win0_2.index t 0 * 64 + 1 * (y 0).val = (y 0).val
    rw [e0]; omega
  · show win0_2.index t 1 * 4096 + 1 * (y 1).val = 4096 * t.val + (y 1).val
    rw [e1]; omega

/-- An index of the result array is in point `t`'s block iff each coordinate is in the block's range on its axis. -/
theorem mem_blk (t : Fin cfg0.N) (i : S64x32768.Idx) :
    i ∈ ((cfg0.win 2).blk t).view.set ↔ ∀ a : Fin 2, win0_2.index t a * S64x4096.size a ≤ (i a).val
      ∧ (i a).val < win0_2.index t a * S64x4096.size a + S64x4096.size a := by
  show i ∈ ((View.whole main_call0_v1).slice (win0_2.rect t)).set ↔ _
  rw [View.set_slice_whole, Rect.mem_set_unit]
  exact Iff.rfl

/-- The 8 column blocks tile the result array: column `r` is in block `r / 4096`, and every point writes back. -/
theorem cover (i : S64x32768.Idx) :
    ∃ t : Fin cfg0.N, (cfg0.win 2).flush t = true ∧ i ∈ ((cfg0.win 2).blk t).view.set := by
  have hN : cfg0.N = 8 := N_0
  have hi0 : (i 0).val < 64 := (i 0).isLt
  have hi1 : (i 1).val < 32768 := (i 1).isLt
  obtain ⟨t, ht⟩ : ∃ t : Fin cfg0.N, t.val = (i 1).val / 4096 := ⟨⟨(i 1).val / 4096, by rw [hN]; omega⟩, rfl⟩
  obtain ⟨e0, e1⟩ := out_index t
  refine ⟨t, flush0_2 t, ?_⟩
  rw [mem_blk]
  intro a
  match a with
  | ⟨0, _⟩ =>
    show win0_2.index t 0 * 64 ≤ (i 0).val ∧ (i 0).val < win0_2.index t 0 * 64 + 64
    rw [e0]; omega
  | ⟨1, _⟩ =>
    show win0_2.index t 1 * 4096 ≤ (i 1).val ∧ (i 1).val < win0_2.index t 1 * 4096 + 4096
    rw [e1]; omega

/-- So the region's result array ends holding the transposed logits. -/
theorem final (c : Dev nD) : (dats m 0 c).arrAt 2 cfg0.N = logitsT (m ((c : Thread nD τ).loc main_arg0)) (m ((c : Thread nD τ).loc main_arg1)) :=
  (dats m 0 c).arrAt_eq_of_cover 2 _ (fun t _ => flushed_eq m c t) cover

/-! ## The host's transpose after the region -/

/-- Transposing the transposed logits gives the logits. -/
theorem transposed (x : S4x8192x768.Idx → EReal) (w : S64x768.Idx → EReal) :
    transpose S32768x64 [1, 0] (logitsT x w) transposes_S64x32768_S32768x64_1_0 = logits x w := by
  funext i
  refine (transpose_apply [1, 0] (logitsT x w) transposes_S64x32768_S32768x64_1_0 i (ix2 (i 1 : Fin 64) (i 0 : Fin 32768))
    (fun b => match b with
      | ⟨0, _⟩ => rfl
      | ⟨1, _⟩ => rfl)).trans ?_
  exact congrArg (logits x w) (eq_ix2 i).symm

/-- The program's result buffer, after the host's transpose of the region's result: the logits. -/
theorem result_eq (c : Dev nD) :
    Pipeline.afterTail₀ cfgs (dats m) 0 (V0 m) [hostOps1] c main_v0 = logits (m ((c : Thread nD τ).loc main_arg0)) (m ((c : Thread nD τ).loc main_arg1)) := by
  unfold Pipeline.afterTail₀
  show StableHlo.after hostOps1 _ (Proc.devRef .tc main_v0) = _
  after_results
  have e : Pipeline.withArrays (cfgs 0).spec c (V0 m c) (fun w => (dats m 0 c).arrAt w (cfgs 0).N)
      (Proc.devRef .tc (Pipeline.arrRef spec0 2)) = logitsT (m ((c : Thread nD τ).loc main_arg0)) (m ((c : Thread nD τ).loc main_arg1)) :=
    (Pipeline.withArrays_arr spec0 launch0.win.arr_inj c _ _ 2).trans (final m c)
  exact (congrArg (fun z => transpose S32768x64 [1, 0] z transposes_S64x32768_S32768x64_1_0) e).trans (transposed _ _)

/-! ## The run, read -/

/-- Every weakly fair execution of the idealized kernel program terminates with its result buffer at the router logits
    of its arguments, and the arguments unchanged. -/
theorem run : θ_run defs (onTc (τ := τ) (main (F := Ideal))) ⟨m, fun _ => 0, ρ⟩ fun r => ∀ c : Dev nD,
      r.2.mem ((c : Thread nD τ).loc main_v0) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.RouterArray

end
-- ==== Proof.lean ====
/-
  The router projection kernel against its reference, over the extended reals.

  Both programs map hidden states x : [4, 8192, 768] and a weight w : [64, 768] to the logits [32768, 64],

      logits (r, e) = ∑ k < 768, x (r / 8192, r % 8192, k) · w (e, k).

  The reference flattens x to [32768, 768] and multiplies by the transposed weight. The kernel flattens x the same way,
  walks the tokens in 8 blocks of 4096, keeps a packed copy of w in a scratch buffer written at the first block only,
  computes for each block the weight-stationary product w · blockᵀ : [64, 4096] into one column block of a [64, 32768]
  array, and transposes that array at the end. At the ideal instance the packing (a change of float format) is the
  identity, the two contractions are the same sum over the 768 features in the same order, and the two differ only in
  the order of the factors of each product; the product of extended reals is commutative, so no finiteness of the inputs
  is used. The ideal pass rewrote nothing, so the idealization claim is trivial.

  The modules: RouterSpec (the logits as one function, and the swapped form of the sum), RefLogits (the reference's
  result is the logits), RouterBody (what one run of the body leaves, per control case), RouterProduct (the body's
  arithmetic at an index), RouterGrid (the scratch holds the packed weight after every grid point, by induction),
  RouterArray (blocks to array, the final transpose, and the kernel program's run).
-/
import proofs.«177702_g52097953300680_cont_9to1_m_655_25_alg».proof.Defs
import proofs.«177702_g52097953300680_cont_9to1_m_655_25_alg».proof.Proof.Gen.Kernel
import proofs.«177702_g52097953300680_cont_9to1_m_655_25_alg».proof.Proof.Gen.Kernel.Frame
import proofs.«177702_g52097953300680_cont_9to1_m_655_25_alg».proof.Proof.Gen.KernelIdeal
import proofs.«177702_g52097953300680_cont_9to1_m_655_25_alg».proof.Proof.Gen.KernelIdeal.Frame
import proofs.«177702_g52097953300680_cont_9to1_m_655_25_alg».proof.Proof.Gen.ReferenceIdeal
import proofs.«177702_g52097953300680_cont_9to1_m_655_25_alg».proof.Proof.Gen.ReferenceIdeal.Run
import proofs.«177702_g52097953300680_cont_9to1_m_655_25_alg».proof.Proof.Gen.ReferenceIdeal.Read
import proofs.«177702_g52097953300680_cont_9to1_m_655_25_alg».proof.Proof.Gen.Pre_finite_inputs
import proofs.«177702_g52097953300680_cont_9to1_m_655_25_alg».proof.Proof.RouterSpec
import proofs.«177702_g52097953300680_cont_9to1_m_655_25_alg».proof.Proof.RefLogits
import proofs.«177702_g52097953300680_cont_9to1_m_655_25_alg».proof.Proof.RouterArray
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both idealized programs end with the router logits of the arguments in
    their result buffers. -/
theorem algebraic : Cert.algebraic_KernelIdeal_ReferenceIdeal := by
  intro m ρ m' ρ' _ hagree
  refine ⟨_, Cert.KernelIdeal.RouterArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefLogits.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
